-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S256 .f32) (main_arg7 : FVec F S256x10 .f32) (main_arg8 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg7
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x1 : Shape := ⟨2, ![50000, 1]⟩
abbrev S256x1 : Shape := ⟨2, ![256, 1]⟩
abbrev S1x10 : Shape := ⟨2, ![1, 10]⟩

abbrev nBuf : Space → Nat
  | .hbm => 103
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S50000x256, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x256, .f32⟩
  | .hbm, ⟨76, _⟩ => ⟨S850000x1, .f32⟩
  | .hbm, ⟨77, _⟩ => ⟨S850000x256, .f32⟩
  | .hbm, ⟨78, _⟩ => ⟨S850000x256, .f32⟩
  | .hbm, ⟨79, _⟩ => ⟨S_, .f32⟩
  | .hbm, ⟨80, _⟩ => ⟨S50000x256, .f32⟩
  | .hbm, ⟨81, _⟩ => ⟨S850000x1, .i32⟩
  | .hbm, ⟨82, _⟩ => ⟨S50000x256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S256, .f32⟩
  | .hbm, ⟨90, _⟩ => ⟨S50000x1, .i32⟩
  | .hbm, ⟨91, _⟩ => ⟨S256, .f32⟩
  | .hbm, ⟨92, _⟩ => ⟨S_, .f32⟩
  | .hbm, ⟨93, _⟩ => ⟨S256x256, .f32⟩
  | .hbm, ⟨94, _⟩ => ⟨S50000x1, .i32⟩
  | .hbm, ⟨95, _⟩ => ⟨S256x256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S256x1, .f32⟩
  | .hbm, ⟨100, _⟩ => ⟨S256x256, .f32⟩
  | .hbm, ⟨101, _⟩ => ⟨S256x256, .f32⟩
  | .hbm, ⟨102, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S256x256, .f32⟩
  | .local _ .vmem, ⟨12, _⟩ => ⟨S256x10, .f32⟩
  | .local _ .vmem, ⟨13, _⟩ => ⟨S10, .f32⟩
  | .local _ .vmem, ⟨14, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S50000_S50000x1_0 : S50000.BroadcastsInDim S50000x1 (![0] : Fin 1 → Fin S50000x1.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  shapeCasts_S256x256_S256x256 : S256x256.ShapeCasts S256x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S256x256.size a
  hwx2_0 : ∀ i : grid2.Coords, EltTy.bits .f32 = 32 ∨ (Rect.block (s := S256x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x10.size a ≤ S256x10.size a
  hwx2_1 : ∀ i : grid2.Coords, EltTy.bits .f32 = 32 ∨ (Rect.block (s := S256x10) S256x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x10.size a ≤ S256x10.size a
  hwx2_3 : ∀ i : grid2.Coords, EltTy.bits .f32 = 32 ∨ (Rect.block (s := S256x10) S256x10.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S256x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S256x1 : Shape := ⟨2, ![256, 1]⟩
abbrev S1x10 : Shape := ⟨2, ![1, 10]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x256, .f32⟩
  | .hbm, ⟨82, _⟩ => ⟨S850000x1, .f32⟩
  | .hbm, ⟨83, _⟩ => ⟨S850000x256, .f32⟩
  | .hbm, ⟨84, _⟩ => ⟨S850000x256, .f32⟩
  | .hbm, ⟨85, _⟩ => ⟨S_, .f32⟩
  | .hbm, ⟨86, _⟩ => ⟨S50000x256, .f32⟩
  | .hbm, ⟨87, _⟩ => ⟨S850000x1, .i32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S256, .f32⟩
  | .hbm, ⟨96, _⟩ => ⟨S50000x1, .i32⟩
  | .hbm, ⟨97, _⟩ => ⟨S256, .f32⟩
  | .hbm, ⟨98, _⟩ => ⟨S_, .f32⟩
  | .hbm, ⟨99, _⟩ => ⟨S256x256, .f32⟩
  | .hbm, ⟨100, _⟩ => ⟨S50000x1, .i32⟩
  | .hbm, ⟨101, _⟩ => ⟨S256x256, .f32⟩
  | .hbm, ⟨102, _⟩ => ⟨S_, .f32⟩
  | .hbm, ⟨103, _⟩ => ⟨S256, .f32⟩
  | .hbm, ⟨104, _⟩ => ⟨S256, .f32⟩
  | .hbm, ⟨105, _⟩ => ⟨S256x1, .f32⟩
  | .hbm, ⟨106, _⟩ => ⟨S256x256, .f32⟩
  | .hbm, ⟨107, _⟩ => ⟨S256x256, .f32⟩
  | .hbm, ⟨108, _⟩ => ⟨S256x10, .f32⟩
  | .hbm, ⟨109, _⟩ => ⟨S1x10, .f32⟩
  | .hbm, ⟨110, _⟩ => ⟨S256x10, .f32⟩
  | .hbm, ⟨111, _⟩ => ⟨S256x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S50000_S50000x1_0 : S50000.BroadcastsInDim S50000x1 (![0] : Fin 1 → Fin S50000x1.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x10_S256x10_1_0_0_1_n_n_wf : DotDims.WF S256x256 S256x10 S256x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

class Facts : Prop extends Facts₀ where

variable [Facts]
-- ==== Proof.KRun.lean ====
/-
  The idealized kernel's run with its result named.

  The program is three launches among stretches of host operations. Its generated frame follows the buffer contents
  from one boundary to the next (`Gen.W0` … `Gen.W8`: a stretch of host operations applies them in order, a launch
  replaces its arrays by what its write-backs leave) and ends with every buffer of the core at `Gen.W8`. Read at the
  result buffer instead of only at the arguments, the same run says: every weakly fair execution terminates, nothing
  faults, the result holds `Gen.W8` at the result buffer, and the arguments are as launched.
-/
import proofs.«178638_j4045859193302_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and every argument array is as launched. -/
theorem run_result : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Hand

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«178638_j4045859193302_1_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.Region0.lean ====
/-
  The first launch: a product of a [50000, 128] array by a [128, 256] array, computed in ten blocks of 5000 rows.

  At each of the ten points the body loads rows 5000·t … 5000·t + 4999 of the left operand and the whole right
  operand, multiplies them into a zero accumulator (the change of float format on the way in is the identity on the
  extended reals) and stores the [5000, 256] product. Entry (p, j) of that block is the sum over q of
  x (5000·t + p, q) · w (q, j), which is entry (5000·t + p, j) of the whole product: a block of rows of a product
  is the product of the block of rows. The ten blocks tile the result, so after the launch the result array is the
  whole product.
-/
import proofs.«178638_j4045859193302_1_alg».proof.Proof.Gen.KernelIdeal.Frame
import proofs.«178638_j4045859193302_1_alg».proof.Proof.LibMatProd
import proofs.«178638_j4045859193302_1_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a rank-2 block. -/
private theorem zero2 : (![0, 0] : Fin 2 → Nat) = fun _ => 0 := funext fun a => by fin_cases a <;> rfl

/-- An entry of a matrix product at an index whose coordinates are known. -/
private theorem mm_at {a k n : ℕ} (L : FVec Ideal ⟨2, ![a, k]⟩ .f32) (R : FVec Ideal ⟨2, ![k, n]⟩ .f32)
    (i : (⟨2, ![a, n]⟩ : Shape).Idx) (r : Fin a) (j : Fin n) (h0 : (i 0).val = r.val) (h1 : (i 1).val = j.val) :
    Cert.LibMatProd.mm L R i = ∑ q : Fin k, L (ix2 r q) * R (ix2 q j) := by
  have e : i = ix2 r j := funext fun d => by
    match d with
    | ⟨0, _⟩ => exact Fin.ext h0
    | ⟨1, _⟩ => exact Fin.ext h1
  rw [e]
  rfl

/-- The body's product at (p, j): the sum over q of the left block's (p, q) times the right block's (q, j). -/
theorem pay0_ix2 (x0 : Vec Ideal S5000x128 .f32) (x1 : Vec Ideal S128x256 .f32) (p : Fin 5000) (j : Fin 256) :
    k0_pay1 x0 x1 (ix2 p j) = ∑ q : Fin 128, x0 (ix2 p q) * x1 (ix2 q j) := by
  unfold k0_pay1
  exact Cert.LibAffine.coreDot_ix2 (a := 5000) (k := 128) (n := 256) dot_S5000x128_S128x256_S5000x256_1_0_0_1_n_n
    (Cert.LibPlainDot.contr_rank _ rfl) (Cert.LibPlainDot.contr_size _ rfl) (Cert.LibPlainDot.lhs_row _ rfl rfl)
    (Cert.LibPlainDot.lhs_col _ rfl) (Cert.LibPlainDot.rhs_row _ rfl rfl) (Cert.LibPlainDot.rhs_col _ rfl rfl rfl rfl) none
    _ _ p j

/-- The launch's index maps over its ten points: the left operand and the result move one block of rows per point,
    the right operand stays. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The left operand as the launch finds it. -/
abbrev lhs0 (c : Dev nD) : FVec Ideal ⟨2, ![50000, 128]⟩ .f32 := V c main_arg0
/-- The right operand as the launch finds it. -/
abbrev rhs0 (c : Dev nD) : FVec Ideal ⟨2, ![128, 256]⟩ .f32 := V c main_arg3

/-- The whole product, as contents of the result buffer. -/
def prod0 (c : Dev nD) : Buf (Elt Ideal) ((c : Thread nD τ).loc main_v30) :=
  Cert.LibMatProd.mm (lhs0 V c) (rhs0 V c)

/-- The left window's block at point t is rows 5000·t … of the left operand. -/
theorem iblk0_0_at (c : Dev nD) (t : Fin cfg0.N) (p : Fin 5000) (q : Fin 128) (r : Fin 50000)
    (hr : r.val = t.val * 5000 + p.val) : iblk0 V c 0 t (ix2 p q) = lhs0 V c (ix2 r q) := by
  obtain ⟨e0, e1, -⟩ := index_facts0 t
  show V c main_arg0 (((cfg0.win 0).blk t).view.emb (ix2 p q)) = V c main_arg0 (ix2 r q)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * q.val = q.val; omega

/-- The right window's block at every point is the whole right operand. -/
theorem iblk0_1_at (c : Dev nD) (t : Fin cfg0.N) (q : Fin 128) (j : Fin 256) :
    iblk0 V c 1 t (ix2 q j) = rhs0 V c (ix2 q j) := by
  obtain ⟨-, -, e2, e3, -⟩ := index_facts0 t
  show V c main_arg3 (((cfg0.win 1).blk t).view.emb (ix2 q j)) = V c main_arg3 (ix2 q j)
  refine congrArg (V c main_arg3) (funext fun a => Fin.ext ?_)
  match a with
  | ⟨0, _⟩ => show win0_1.index t (0 : Fin 2) * 128 + 1 * q.val = q.val; omega
  | ⟨1, _⟩ => show win0_1.index t (1 : Fin 2) * 256 + 1 * j.val = j.val; omega

/-- What point t writes back is block t of the whole product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x256) zero2]
  obtain ⟨-, -, -, -, e4, e5⟩ := index_facts0 t
  have ht : t.val < 10 := by have h := t.isLt; have hN : cfg0.N = 10 := N_0; omega
  have key : ∀ y : S5000x256.Idx, k0_pay1 (iblk0 V c 0 t) (iblk0 V c 1 t) y
      = prod0 V c (((cfg0.win 2).blk t).view.emb y) := by
    intro y
    obtain ⟨p, j, rfl⟩ : ∃ (p : Fin 5000) (j : Fin 256), y = ix2 p j := ⟨y 0, y 1, eq_ix2 y⟩
    refine (pay0_ix2 (iblk0 V c 0 t) (iblk0 V c 1 t) p j).trans ?_
    have hp := p.isLt
    refine Eq.trans ?_ (mm_at (lhs0 V c) (rhs0 V c) (((cfg0.win 2).blk t).view.emb (ix2 p j))
      ⟨t.val * 5000 + p.val, by omega⟩ j ?_ ?_).symm
    · exact Finset.sum_congr rfl fun q _ =>
        congrArg₂ (· * ·) (iblk0_0_at V c t p q ⟨t.val * 5000 + p.val, by omega⟩ rfl) (iblk0_1_at V c t q j)
    · show win0_2.index t (0 : Fin 2) * 5000 + 1 * p.val = t.val * 5000 + p.val; omega
    · show win0_2.index t (1 : Fin 2) * 256 + 1 * j.val = j.val; omega
  exact funext key

/-- An index of the result is in point t's block iff its coordinates are in the block's ranges. -/
theorem mem_blk0 (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v30).slice (win0_2.rect t)).set ↔ _
  rw [View.set_slice_whole, Rect.mem_set_unit]
  exact Iff.rfl

/-- After the launch the result array is the whole product: row r lies in the block of point r / 5000. -/
theorem region0_array (c : Dev nD) : (dat0 V c).arrAt 2 cfg0.N = prod0 V c :=
  (dat0 V c).arrAt_eq_of_cover 2 (prod0 V c) (fun t _ => flushed0_eq V c t) fun i => by
    have hi0 : (i 0).val < 50000 := (i 0).isLt
    have hi1 : (i 1).val < 256 := (i 1).isLt
    have hN : cfg0.N = 10 := N_0
    let t : Fin cfg0.N := ⟨(i 0).val / 5000, by rw [hN]; omega⟩
    obtain ⟨-, -, -, -, e4, e5⟩ := index_facts0 t
    refine ⟨t, flush0_2 t, ?_⟩
    rw [mem_blk0]
    intro a
    match a with
    | ⟨0, _⟩ =>
      show win0_2.index t (0 : Fin 2) * 5000 ≤ (i 0).val ∧ (i 0).val < win0_2.index t (0 : Fin 2) * 5000 + 5000
      rw [e4]; show (i 0).val / 5000 * 5000 ≤ (i 0).val ∧ (i 0).val < (i 0).val / 5000 * 5000 + 5000; omega
    | ⟨1, _⟩ =>
      show win0_2.index t (1 : Fin 2) * 256 ≤ (i 1).val ∧ (i 1).val < win0_2.index t (1 : Fin 2) * 256 + 256
      rw [e5]; omega

end Cert.KernelIdeal.Hand

end
-- ==== Proof.Region1.lean ====
/-
  The second launch: relu(agg + b1) · W2, computed in ten blocks of 5000 rows.

  At each of the ten points the body loads rows 5000·t … 5000·t + 4999 of the aggregated array, the bias vector of
  length 256 and the whole weight; it lays the bias along every row, adds, takes the maximum with zero, and multiplies
  the result by the weight into a zero accumulator (the change of float format on the way in is the identity on the
  extended reals). Entry (p, j) of the stored block is the sum over q of max(agg (5000·t + p, q) + b1 (q), 0) · W2 (q, j),
  which is entry (5000·t + p, j) of the product of the whole rectified array by the weight: the rectified array is
  computed entry by entry, and a block of rows of a product is the product of the block of rows. The ten blocks tile the result.
-/
import proofs.«178638_j4045859193302_1_alg».proof.Proof.Gen.KernelIdeal.Frame
import proofs.«178638_j4045859193302_1_alg».proof.Proof.LibMatProd
import proofs.«178638_j4045859193302_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

private theorem zero2 : (![0, 0] : Fin 2 → Nat) = fun _ => 0 := funext fun a => by fin_cases a <;> rfl
private theorem zero1 : (![0] : Fin 1 → Nat) = fun _ => 0 := funext fun a => by fin_cases a; rfl

private theorem mm_at {a k n : ℕ} (L : FVec Ideal ⟨2, ![a, k]⟩ .f32) (R : FVec Ideal ⟨2, ![k, n]⟩ .f32)
    (i : (⟨2, ![a, n]⟩ : Shape).Idx) (r : Fin a) (j : Fin n) (h0 : (i 0).val = r.val) (h1 : (i 1).val = j.val) :
    Cert.LibMatProd.mm L R i = ∑ q : Fin k, L (ix2 r q) * R (ix2 q j) := by
  have e : i = ix2 r j := funext fun d => by
    match d with
    | ⟨0, _⟩ => exact Fin.ext h0
    | ⟨1, _⟩ => exact Fin.ext h1
  rw [e]
  rfl

/-- A bias vector added along every row of a matrix, then the maximum with zero, entry by entry. -/
def rectified {a k : ℕ} (A : FVec Ideal ⟨2, ![a, k]⟩ .f32) (b : FVec Ideal ⟨1, ![k]⟩ .f32) : FVec Ideal ⟨2, ![a, k]⟩ .f32 :=
  fun i => max (A i + b (ix1 (i 1))) (FloatOps.ofBits (F := Ideal) .f32 0x00000000#32)

theorem rectified_ix2 {a k : ℕ} (A : FVec Ideal ⟨2, ![a, k]⟩ .f32) (b : FVec Ideal ⟨1, ![k]⟩ .f32) (r : Fin a) (q : Fin k) :
    rectified A b (ix2 r q) = max (A (ix2 r q) + b (ix1 q)) (FloatOps.ofBits (F := Ideal) .f32 0x00000000#32) := rfl

/-- The body's rectified block: the bias read as a row, laid along the rows, added, and the maximum with a splat zero. -/
def rectBlock (x0 : Vec Ideal S5000x256 .f32) (x2 : Vec Ideal S256 .f32) : FVec Ideal S5000x256 .f32 :=
  maximumf (addf (shapeCast S5000x256 x0 shapeCasts_S5000x256_S5000x256)
      (broadcastTo S5000x256 (shapeCast S1x256 x2 shapeCasts_S256_S1x256) broadcasts_S1x256_S5000x256))
    (broadcast S5000x256 (Scalar.ofBits .f32 0x00000000#32))

/-- Entry (p, q) of the rectified block is max(x (p, q) + b (q), 0). -/
theorem rectBlock_ix2 (x0 : Vec Ideal S5000x256 .f32) (x2 : Vec Ideal S256 .f32) (p : Fin 5000) (q : Fin 256) :
    rectBlock x0 x2 (ix2 p q) = max (x0 (ix2 p q) + x2 (ix1 q)) (FloatOps.ofBits (F := Ideal) .f32 0x00000000#32) := by
  show max ((shapeCast S5000x256 x0 shapeCasts_S5000x256_S5000x256) (ix2 p q)
      + (broadcastTo S5000x256 (shapeCast S1x256 x2 shapeCasts_S256_S1x256) broadcasts_S1x256_S5000x256) (ix2 p q)) _ = _
  rw [shapeCast_self, broadcastTo_1b_ab_apply, shapeCast_a_1a_apply]
  rfl

/-- The body's product at (p, j): the sum over q of the rectified block's (p, q) times the weight's (q, j). -/
theorem pay1_ix2 (x0 : Vec Ideal S5000x256 .f32) (x2 : Vec Ideal S256 .f32) (x9 : Vec Ideal S256x256 .f32) (p : Fin 5000) (j : Fin 256) :
    k1_pay1 x0 x2 x9 (ix2 p j)
      = ∑ q : Fin 256, max (x0 (ix2 p q) + x2 (ix1 q)) (FloatOps.ofBits (F := Ideal) .f32 0x00000000#32) * x9 (ix2 q j) := by
  unfold k1_pay1
  refine (Cert.LibAffine.coreDot_ix2 (a := 5000) (k := 256) (n := 256) dot_S5000x256_S256x256_S5000x256_1_0_0_1_n_n
    (Cert.LibPlainDot.contr_rank _ rfl) (Cert.LibPlainDot.contr_size _ rfl) (Cert.LibPlainDot.lhs_row _ rfl rfl)
    (Cert.LibPlainDot.lhs_col _ rfl) (Cert.LibPlainDot.rhs_row _ rfl rfl) (Cert.LibPlainDot.rhs_col _ rfl rfl rfl rfl) none
    (truncf .bf16 (rectBlock x0 x2) bitsLt_bf16_f32) (truncf .bf16 x9 bitsLt_bf16_f32) p j).trans ?_
  refine Finset.sum_congr rfl fun q _ => ?_
  show rectBlock x0 x2 (ix2 p q) * x9 (ix2 q j) = _
  rw [rectBlock_ix2]

/-- The launch's index maps over its ten points: the aggregated array and the result move one block of rows per
    point, the bias and the weight stay. -/
theorem index_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The aggregated array, the bias and the weight as the launch finds them. -/
abbrev agg1 (c : Dev nD) : FVec Ideal ⟨2, ![50000, 256]⟩ .f32 := V c main_v43
abbrev bias1 (c : Dev nD) : FVec Ideal ⟨1, ![256]⟩ .f32 := V c main_arg4
abbrev weight1 (c : Dev nD) : FVec Ideal ⟨2, ![256, 256]⟩ .f32 := V c main_arg5

/-- The rectified array times the weight, as contents of the result buffer. -/
def prod1 (c : Dev nD) : Buf (Elt Ideal) ((c : Thread nD τ).loc main_v44) :=
  Cert.LibMatProd.mm (rectified (agg1 V c) (bias1 V c)) (weight1 V c)

theorem iblk1_0_at (c : Dev nD) (t : Fin cfg1.N) (p : Fin 5000) (q : Fin 256) (r : Fin 50000)
    (hr : r.val = t.val * 5000 + p.val) : iblk1 V c 0 t (ix2 p q) = agg1 V c (ix2 r q) := by
  obtain ⟨e0, e1, -⟩ := index_facts1 t
  show V c main_v43 (((cfg1.win 0).blk t).view.emb (ix2 p q)) = V c main_v43 (ix2 r q)
  refine congrArg (V c main_v43) (funext fun a => Fin.ext ?_)
  match a with
  | ⟨0, _⟩ => show win1_0.index t (0 : Fin 2) * 5000 + 1 * p.val = r.val; omega
  | ⟨1, _⟩ => show win1_0.index t (1 : Fin 2) * 256 + 1 * q.val = q.val; omega

theorem iblk1_1_at (c : Dev nD) (t : Fin cfg1.N) (q : Fin 256) : iblk1 V c 1 t (ix1 q) = bias1 V c (ix1 q) := by
  obtain ⟨-, -, e2, -⟩ := index_facts1 t
  show V c main_arg4 (((cfg1.win 1).blk t).view.emb (ix1 q)) = V c main_arg4 (ix1 q)
  refine congrArg (V c main_arg4) (funext fun a => Fin.ext ?_)
  match a with
  | ⟨0, _⟩ => show win1_1.index t (0 : Fin 1) * 256 + 1 * q.val = q.val; omega

theorem iblk1_2_at (c : Dev nD) (t : Fin cfg1.N) (q : Fin 256) (j : Fin 256) :
    iblk1 V c 2 t (ix2 q j) = weight1 V c (ix2 q j) := by
  obtain ⟨-, -, -, e3, e4, -⟩ := index_facts1 t
  show V c main_arg5 (((cfg1.win 2).blk t).view.emb (ix2 q j)) = V c main_arg5 (ix2 q j)
  refine congrArg (V c main_arg5) (funext fun a => Fin.ext ?_)
  match a with
  | ⟨0, _⟩ => show win1_2.index t (0 : Fin 2) * 256 + 1 * q.val = q.val; omega
  | ⟨1, _⟩ => show win1_2.index t (1 : Fin 2) * 256 + 1 * j.val = j.val; omega

/-- What point t writes back is block t of the rectified array times the weight. -/
theorem flushed1_eq (c : Dev nD) (t : Fin cfg1.N) :
    (dat1 V c).flushed 3 t = ((cfg1.win 3).blk t).view.read (Elt Ideal) (prod1 V c) := by
  show (cfg1.win 3).cut (grid1.coords t) ((dat1 V c).after 3 t) = _
  rw [after1_3]
  unfold out1_3
  rw [View.canon_unit_zero zero2]
  simp only [View.ld_unit_zero (S := S5000x256) zero2, View.ld_unit_zero (S := S256x256) zero2, View.ld_unit_zero (S := S256) zero1]
  obtain ⟨-, -, -, -, -, e5, e6⟩ := index_facts1 t
  have ht : t.val < 10 := by have h := t.isLt; have hN : cfg1.N = 10 := N_1; omega
  have key : ∀ y : S5000x256.Idx, k1_pay1 (iblk1 V c 0 t) (iblk1 V c 1 t) (iblk1 V c 2 t) y
      = prod1 V c (((cfg1.win 3).blk t).view.emb y) := by
    intro y
    obtain ⟨p, j, rfl⟩ : ∃ (p : Fin 5000) (j : Fin 256), y = ix2 p j := ⟨y 0, y 1, eq_ix2 y⟩
    refine (pay1_ix2 (iblk1 V c 0 t) (iblk1 V c 1 t) (iblk1 V c 2 t) p j).trans ?_
    have hp := p.isLt
    refine Eq.trans ?_ (mm_at (rectified (agg1 V c) (bias1 V c)) (weight1 V c) (((cfg1.win 3).blk t).view.emb (ix2 p j))
      ⟨t.val * 5000 + p.val, by omega⟩ j ?_ ?_).symm
    · refine Finset.sum_congr rfl fun q _ => ?_
      rw [rectified_ix2, iblk1_0_at V c t p q ⟨t.val * 5000 + p.val, by omega⟩ rfl, iblk1_1_at V c t q, iblk1_2_at V c t q j]
    · show win1_3.index t (0 : Fin 2) * 5000 + 1 * p.val = t.val * 5000 + p.val; omega
    · show win1_3.index t (1 : Fin 2) * 256 + 1 * j.val = j.val; omega
  exact funext key

theorem mem_blk1 (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v44).slice (win1_3.rect t)).set ↔ _
  rw [View.set_slice_whole, Rect.mem_set_unit]
  exact Iff.rfl

/-- After the launch the result array is the rectified array times the weight: row r lies in the block of point r / 5000. -/
theorem region1_array (c : Dev nD) : (dat1 V c).arrAt 3 cfg1.N = prod1 V c :=
  (dat1 V c).arrAt_eq_of_cover 3 (prod1 V c) (fun t _ => flushed1_eq V c t) fun i => by
    have hi0 : (i 0).val < 50000 := (i 0).isLt
    have hi1 : (i 1).val < 256 := (i 1).isLt
    have hN : cfg1.N = 10 := N_1
    let t : Fin cfg1.N := ⟨(i 0).val / 5000, by rw [hN]; omega⟩
    obtain ⟨-, -, -, -, -, e5, e6⟩ := index_facts1 t
    refine ⟨t, flush1_3 t, ?_⟩
    rw [mem_blk1]
    intro a
    match a with
    | ⟨0, _⟩ =>
      show win1_3.index t (0 : Fin 2) * 5000 ≤ (i 0).val ∧ (i 0).val < win1_3.index t (0 : Fin 2) * 5000 + 5000
      rw [e5]; show (i 0).val / 5000 * 5000 ≤ (i 0).val ∧ (i 0).val < (i 0).val / 5000 * 5000 + 5000; omega
    | ⟨1, _⟩ =>
      show win1_3.index t (1 : Fin 2) * 256 ≤ (i 1).val ∧ (i 1).val < win1_3.index t (1 : Fin 2) * 256 + 256
      rw [e6]; omega

end Cert.KernelIdeal.Hand

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.Region2.lean ====
/-
  The third launch: pooled · Wlin + blin, one point, whole arrays.

  The body loads the [256, 256] pooled array, the [256, 10] weight and the bias vector of length 10, multiplies the
  first two into a zero accumulator (the change of float format on the way in is the identity on the extended
  reals), lays the bias along every row and adds. Entry (p, j) of what it stores is the sum over q of
  pooled (p, q) · Wlin (q, j), plus blin (j): the dense layer of the three operands. The one block is the whole
  result array.
-/
import proofs.«178638_j4045859193302_1_alg».proof.Proof.Gen.KernelIdeal.Frame
import proofs.«178638_j4045859193302_1_alg».proof.Proof.LibMatProd
import proofs.«178638_j4045859193302_1_alg».proof.Proof.LibPlainDot
import Idealize.ShloMosaic.Lib.Pipeline.Value
import Idealize.ShloMosaic.Lib.ValueIdx
import proofs.«178638_j4045859193302_1_alg».proof.Proof.LibColumnRow
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a rank-2 block. -/
private theorem zero2 : (![0, 0] : Fin 2 → Nat) = fun _ => 0 := funext fun a => by fin_cases a <;> rfl

/-- The zero offset of a rank-1 block. -/
private theorem zero1 : (![0] : Fin 1 → Nat) = fun _ => 0 := funext fun a => by fin_cases a; rfl

/-- The body's result is the dense layer of its three operands, the bias vector read as a row. -/
theorem pay2_eq (x0 : Vec Ideal S256x256 .f32) (x3 : Vec Ideal S256x10 .f32) (x6 : Vec Ideal S10 .f32) :
    k2_pay1 x0 x3 x6 = Cert.LibAffine.affine (a := 256) (k := 256) (n := 10) x0 x3 (shapeCast S1x10 x6 shapeCasts_S10_S1x10) := by
  unfold k2_pay1
  refine (Cert.LibAffine.coreAffine_eq (a := 256) (k := 256) (n := 10) dot_S256x256_S256x10_S256x10_1_0_0_1_n_n
    (Cert.LibPlainDot.contr_rank _ rfl) (Cert.LibPlainDot.contr_size _ rfl) (Cert.LibPlainDot.lhs_row _ rfl rfl)
    (Cert.LibPlainDot.lhs_col _ rfl) (Cert.LibPlainDot.rhs_row _ rfl rfl) (Cert.LibPlainDot.rhs_col _ rfl rfl rfl rfl)
    broadcasts_S1x10_S256x10 none _ _ _).trans ?_
  show Cert.LibAffine.affine (a := 256) (k := 256) (n := 10) (shapeCast S256x256 x0 shapeCasts_S256x256_S256x256) x3 _ = _
  rw [shapeCast_self]

/-- The launch's index maps at its one point: every window sits at block 0. -/
theorem index_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- The pooled array, the weight and the bias as the launch finds them. -/
abbrev pooled2 (c : Dev nD) : FVec Ideal ⟨2, ![256, 256]⟩ .f32 := V c main_v72
abbrev weight2 (c : Dev nD) : FVec Ideal ⟨2, ![256, 10]⟩ .f32 := V c main_arg7
abbrev bias2 (c : Dev nD) : FVec Ideal ⟨1, ![10]⟩ .f32 := V c main_arg8

/-- The dense layer of the three, as contents of the result buffer. -/
def layer2 (c : Dev nD) : Buf (Elt Ideal) ((c : Thread nD τ).loc main_v73) :=
  Cert.LibAffine.affine (pooled2 V c) (weight2 V c) (shapeCast S1x10 (bias2 V c) shapeCasts_S10_S1x10)

/-- Each input window's one block is its whole array. -/
theorem iblk2_0_eq (c : Dev nD) (t : Fin cfg2.N) : iblk2 V c 0 t = pooled2 V c := by
  obtain ⟨e0, e1, -⟩ := index_facts2 t
  funext y
  show V c main_v72 (((cfg2.win 0).blk t).view.emb y) = V c main_v72 y
  refine congrArg (V c main_v72) (funext fun a => Fin.ext ?_)
  match a with
  | ⟨0, _⟩ => show win2_0.index t (0 : Fin 2) * 256 + 1 * (y 0).val = (y 0).val; omega
  | ⟨1, _⟩ => show win2_0.index t (1 : Fin 2) * 256 + 1 * (y 1).val = (y 1).val; omega
theorem iblk2_1_eq (c : Dev nD) (t : Fin cfg2.N) : iblk2 V c 1 t = weight2 V c := by
  obtain ⟨-, -, e2, e3, -⟩ := index_facts2 t
  funext y
  show V c main_arg7 (((cfg2.win 1).blk t).view.emb y) = V c main_arg7 y
  refine congrArg (V c main_arg7) (funext fun a => Fin.ext ?_)
  match a with
  | ⟨0, _⟩ => show win2_1.index t (0 : Fin 2) * 256 + 1 * (y 0).val = (y 0).val; omega
  | ⟨1, _⟩ => show win2_1.index t (1 : Fin 2) * 10 + 1 * (y 1).val = (y 1).val; omega
theorem iblk2_2_eq (c : Dev nD) (t : Fin cfg2.N) : iblk2 V c 2 t = bias2 V c := by
  obtain ⟨-, -, -, -, e4, -⟩ := index_facts2 t
  funext y
  show V c main_arg8 (((cfg2.win 2).blk t).view.emb y) = V c main_arg8 y
  refine congrArg (V c main_arg8) (funext fun a => Fin.ext ?_)
  match a with
  | ⟨0, _⟩ => show win2_2.index t (0 : Fin 1) * 10 + 1 * (y 0).val = (y 0).val; omega

/-- What the one point writes back is the whole dense layer. -/
theorem flushed2_eq (c : Dev nD) (t : Fin cfg2.N) :
    (dat2 V c).flushed 3 t = ((cfg2.win 3).blk t).view.read (Elt Ideal) (layer2 V c) := by
  show (cfg2.win 3).cut (grid2.coords t) ((dat2 V c).after 3 t) = _
  rw [after2_3]
  unfold out2_3
  rw [View.canon_unit_zero zero2]
  simp only [View.ld_unit_zero (S := S256x256) zero2, View.ld_unit_zero (S := S256x10) zero2, View.ld_unit_zero (S := S10) zero1]
  rw [iblk2_0_eq, iblk2_1_eq, iblk2_2_eq, pay2_eq]
  obtain ⟨-, -, -, -, -, e5, e6⟩ := index_facts2 t
  funext y
  show layer2 V c y = layer2 V c (((cfg2.win 3).blk t).view.emb y)
  refine congrArg (layer2 V c) (funext fun a => Fin.ext ?_)
  match a with
  | ⟨0, _⟩ => show (y 0).val = win2_3.index t (0 : Fin 2) * 256 + 1 * (y 0).val; omega
  | ⟨1, _⟩ => show (y 1).val = win2_3.index t (1 : Fin 2) * 10 + 1 * (y 1).val; omega

/-- An index of the result is in the point's block iff its coordinates are in the block's ranges. -/
theorem mem_blk2 (t : Fin cfg2.N) (i : S256x10.Idx) :
    i ∈ ((cfg2.win 3).blk t).view.set ↔ ∀ a : Fin 2, win2_3.index t a * S256x10.size a ≤ (i a).val
      ∧ (i a).val < win2_3.index t a * S256x10.size a + S256x10.size a := by
  show i ∈ ((View.whole main_v73).slice (win2_3.rect t)).set ↔ _
  rw [View.set_slice_whole, Rect.mem_set_unit]
  exact Iff.rfl

/-- After the launch the result array is the dense layer. -/
theorem region2_array (c : Dev nD) : (dat2 V c).arrAt 3 cfg2.N = layer2 V c :=
  (dat2 V c).arrAt_eq_of_cover 3 (layer2 V c) (fun t _ => flushed2_eq V c t) fun i => by
    have hi0 : (i 0).val < 256 := (i 0).isLt
    have hi1 : (i 1).val < 10 := (i 1).isLt
    obtain ⟨-, -, -, -, -, e5, e6⟩ := index_facts2 t2_0
    refine ⟨t2_0, flush2_3 t2_0, ?_⟩
    rw [mem_blk2]
    intro a
    match a with
    | ⟨0, _⟩ =>
      show win2_3.index t2_0 (0 : Fin 2) * 256 ≤ (i 0).val ∧ (i 0).val < win2_3.index t2_0 (0 : Fin 2) * 256 + 256
      rw [e5]; omega
    | ⟨1, _⟩ =>
      show win2_3.index t2_0 (1 : Fin 2) * 10 ≤ (i 1).val ∧ (i 1).val < win2_3.index t2_0 (1 : Fin 2) * 10 + 10
      rw [e6]; omega

end Cert.KernelIdeal.Hand

end
-- ==== Proof.HostChain.lean ====
/-
  The idealized kernel's result, boundary by boundary, against the reference's stages.

  The kernel's program and the reference apply the same host operations in the same order; they differ only where
  the kernel launches a pallas_call: x · W1, relu(agg + b1) · W2 and pooled · Wlin + blin are computed by launches
  in the kernel and by a matrix product, a rectifier and a bias row on the host in the reference. So the buffer
  contents at each boundary of the kernel's run are the reference's stages of the same arguments:

    * before the first launch: the source and target index vectors and the edge weights;
    * after the first launch: x · W1 (a product into a zero accumulator is the host's product);
    * before the second launch: the first aggregation;
    * after the second launch: the rectified, biased aggregation times W2;
    * before the third launch: the pooled means;
    * after the third launch: the logits.

  The gathers, scatter-adds and the degree normalisation are never opened: both sides apply them to equal operands.
  No step needs the operands to be finite.
-/
import proofs.«178638_j4045859193302_1_alg».proof.Proof.Gen.KernelIdeal.Frame
import proofs.«178638_j4045859193302_1_alg».proof.Proof.Region0
import proofs.«178638_j4045859193302_1_alg».proof.Proof.Region1
import proofs.«178638_j4045859193302_1_alg».proof.Proof.Region2
import proofs.«178638_j4045859193302_1_alg».proof.Proof.RefRead
import proofs.«178638_j4045859193302_1_alg».proof.Proof.LibColumnRow
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the first launch -/

/-- The source index vector: the first row of the edge list followed by 0 … 49999. -/
theorem w2_v3 : W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) (Proc.devRef .tc main_v3) = _
  simp only [hostOps0_1, hostOps0]
  after_results_simp
  rfl

/-- The target index vector: the second row of the edge list followed by 0 … 49999. -/
theorem w2_v6 : W2 m ρ c (Proc.devRef .tc main_v6) = Cert.ReferenceIdeal.ReadP.val_main_v6 (F := Ideal) (m ((c : Thread nD τ).loc main_arg1)) := by
  show StableHlo.after hostOps0_1 (StableHlo.after hostOps0 (W0 m ρ c)) (Proc.devRef .tc main_v6) = _
  simp only [hostOps0_1, hostOps0]
  after_results_simp
  rfl

/-- Whether a node's degree (the number of edges landing on it, its self-loop included) is positive. -/
theorem w1_v12 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  simp only [hostOps0]
  after_results_simp
  rfl

/-- The inverse square root of the degree. -/
theorem w1_v13 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  simp only [hostOps0]
  after_results_simp
  rfl

/-- The zero put where the degree is not positive. -/
theorem w1_cst_2 : W1 m ρ c (Proc.devRef .tc main_cst_2) = Cert.ReferenceIdeal.ReadP.val_main_cst_2 (F := Ideal) := by
  show StableHlo.after hostOps0 (W0 m ρ c) (Proc.devRef .tc main_cst_2) = _
  simp only [hostOps0]
  after_results_simp
  try rfl

/-- The guarded inverse square root of the degree: the degree of a node is the number of edges landing on it, its
    self-loop included; where it is not positive the value is zero. -/
theorem w2_v14 : W2 m ρ c (Proc.devRef .tc main_v14) = Cert.ReferenceIdeal.ReadP.val_main_v14 (F := Ideal) (m ((c : Thread nD τ).loc main_arg1)) := by
  show StableHlo.after hostOps0_1 (W1 m ρ c) (Proc.devRef .tc main_v14) = _
  have e12 := w1_v12 m ρ c
  have e13 := w1_v13 m ρ c
  have e2 := w1_cst_2 m ρ c
  generalize W1 m ρ c = V at e12 e13 e2 ⊢
  simp only [hostOps0_1]
  after_results_simp
  rw [e12, e13, e2]
  dsimp only [TRef.toBuf, TRef.ofBuf]
  repeat rw [cast_eq]
  rfl

/-- The edge weights: the guarded inverse square root of the degree gathered at the source times the same gathered at
    the target (an index below zero wraps once by the number of nodes, in both programs alike). -/
theorem w3_v29 : W3 m ρ c (Proc.devRef .tc main_v29) = Cert.ReferenceIdeal.ReadP.val_main_v29 (F := Ideal) (m ((c : Thread nD τ).loc main_arg1)) := by
  show StableHlo.after hostOps0_2 (W2 m ρ c) (Proc.devRef .tc main_v29) = _
  have e14 := w2_v14 m ρ c
  have e3 := w2_v3 m ρ c
  have e6 := w2_v6 m ρ c
  generalize W2 m ρ c = V at e14 e3 e6 ⊢
  simp only [hostOps0_2]
  after_results_simp
  rw [e14, e3, e6]
  rfl

theorem w3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp
  rfl

theorem w3_v6 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp
  rfl

theorem w3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp
  try rfl
theorem w3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp
  try rfl
theorem w3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp
  try rfl
theorem w3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp
  try rfl
theorem w3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0_2, hostOps0_1, hostOps0]
  after_results_simp
  try rfl
theorem w3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp
  try rfl
theorem w3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0_2, hostOps0_1, hostOps0]
  after_results_simp
  try rfl
theorem w3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0_2, hostOps0_1, hostOps0]
  after_results_simp
  try rfl

/-! ## After the first launch -/

/-- The first launch leaves x · W1: the product of the blocks of rows is the host's product. -/
theorem w4_v30 : W4 m ρ c (Proc.devRef .tc main_v30) = Cert.ReferenceIdeal.ReadP.val_main_v30 (F := Ideal) (m ((c : Thread nD τ).loc main_arg0)) (m ((c : Thread nD τ).loc main_arg3)) := by
  refine (W4_arr m ρ c 2).trans ((region0_array (V3 m ρ) c).trans ?_)
  unfold prod0
  show Cert.LibMatProd.mm (a := 50000) (k := 128) (n := 256) (W3 m ρ c (Proc.devRef .tc main_arg0)) (W3 m ρ c (Proc.devRef .tc main_arg3)) = _
  rw [w3_arg0, w3_arg3]
  exact (Cert.LibMatProd.hostDot_eq (a := 50000) (k := 128) (n := 256) Cert.ReferenceIdeal.dot_S50000x128_S128x256_S50000x256_1_0_0_1_n_n
    (Cert.LibPlainDot.contr_rank _ rfl) (Cert.LibPlainDot.contr_size _ rfl) (Cert.LibPlainDot.lhs_row _ rfl rfl)
    (Cert.LibPlainDot.lhs_col _ rfl) (Cert.LibPlainDot.rhs_row _ rfl rfl) (Cert.LibPlainDot.rhs_col _ rfl rfl rfl rfl) none _ _).symm

theorem w4_v3 : W4 m ρ c (Proc.devRef .tc main_v3) = Cert.ReferenceIdeal.ReadP.val_main_v3 (F := Ideal) (m ((c : Thread nD τ).loc main_arg1)) :=
  (W4_of_ne m ρ c main_v3 (by decide)).trans (w3_v3 m ρ c)
theorem w4_v6 : W4 m ρ c (Proc.devRef .tc main_v6) = Cert.ReferenceIdeal.ReadP.val_main_v6 (F := Ideal) (m ((c : Thread nD τ).loc main_arg1)) :=
  (W4_of_ne m ρ c main_v6 (by decide)).trans (w3_v6 m ρ c)
theorem w4_v29 : W4 m ρ c (Proc.devRef .tc main_v29) = Cert.ReferenceIdeal.ReadP.val_main_v29 (F := Ideal) (m ((c : Thread nD τ).loc main_arg1)) :=
  (W4_of_ne m ρ c main_v29 (by decide)).trans (w3_v29 m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)
theorem w4_arg2 : W4 m ρ c (Proc.devRef .tc main_arg2) = m ((c : Thread nD τ).loc main_arg2) :=
  (W4_of_ne m ρ c main_arg2 (by decide)).trans (w3_arg2 m ρ c)
theorem w4_arg7 : W4 m ρ c (Proc.devRef .tc main_arg7) = m ((c : Thread nD τ).loc main_arg7) :=
  (W4_of_ne m ρ c main_arg7 (by decide)).trans (w3_arg7 m ρ c)
theorem w4_arg8 : W4 m ρ c (Proc.devRef .tc main_arg8) = m ((c : Thread nD τ).loc main_arg8) :=
  (W4_of_ne m ρ c main_arg8 (by decide)).trans (w3_arg8 m ρ c)

/-! ## Before the second launch -/

/-- The first aggregation: the gathered rows of x · W1 scaled by the edge weights and scatter-added at the targets. -/
theorem w5_v43 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  simp only [hostOps1]
  after_results_simp
  rw [w4_v3, w4_v6, w4_v29, w4_v30]
  rfl

theorem w5_v3 : W5 m ρ c (Proc.devRef .tc main_v3) = Cert.ReferenceIdeal.ReadP.val_main_v3 (F := Ideal) (m ((c : Thread nD τ).loc main_arg1)) := by
  show StableHlo.after hostOps1 (W4 m ρ c) (Proc.devRef .tc main_v3) = _
  simp only [hostOps1]
  after_results_simp
  exact w4_v3 m ρ c
theorem w5_v6 : W5 m ρ c (Proc.devRef .tc main_v6) = Cert.ReferenceIdeal.ReadP.val_main_v6 (F := Ideal) (m ((c : Thread nD τ).loc main_arg1)) := by
  show StableHlo.after hostOps1 (W4 m ρ c) (Proc.devRef .tc main_v6) = _
  simp only [hostOps1]
  after_results_simp
  exact w4_v6 m ρ c
theorem w5_v29 : W5 m ρ c (Proc.devRef .tc main_v29) = Cert.ReferenceIdeal.ReadP.val_main_v29 (F := Ideal) (m ((c : Thread nD τ).loc main_arg1)) := by
  show StableHlo.after hostOps1 (W4 m ρ c) (Proc.devRef .tc main_v29) = _
  simp only [hostOps1]
  after_results_simp
  exact w4_v29 m ρ c
theorem w5_arg4 : W5 m ρ c (Proc.devRef .tc main_arg4) = m ((c : Thread nD τ).loc main_arg4) := by
  show StableHlo.after hostOps1 (W4 m ρ c) (Proc.devRef .tc main_arg4) = _
  simp only [hostOps1]
  after_results_simp
  exact w4_arg4 m ρ c
theorem w5_arg5 : W5 m ρ c (Proc.devRef .tc main_arg5) = m ((c : Thread nD τ).loc main_arg5) := by
  show StableHlo.after hostOps1 (W4 m ρ c) (Proc.devRef .tc main_arg5) = _
  simp only [hostOps1]
  after_results_simp
  exact w4_arg5 m ρ c
theorem w5_arg6 : W5 m ρ c (Proc.devRef .tc main_arg6) = m ((c : Thread nD τ).loc main_arg6) := by
  show StableHlo.after hostOps1 (W4 m ρ c) (Proc.devRef .tc main_arg6) = _
  simp only [hostOps1]
  after_results_simp
  exact w4_arg6 m ρ c
theorem w5_arg2 : W5 m ρ c (Proc.devRef .tc main_arg2) = m ((c : Thread nD τ).loc main_arg2) := by
  show StableHlo.after hostOps1 (W4 m ρ c) (Proc.devRef .tc main_arg2) = _
  simp only [hostOps1]
  after_results_simp
  exact w4_arg2 m ρ c
theorem w5_arg7 : W5 m ρ c (Proc.devRef .tc main_arg7) = m ((c : Thread nD τ).loc main_arg7) := by
  show StableHlo.after hostOps1 (W4 m ρ c) (Proc.devRef .tc main_arg7) = _
  simp only [hostOps1]
  after_results_simp
  exact w4_arg7 m ρ c
theorem w5_arg8 : W5 m ρ c (Proc.devRef .tc main_arg8) = m ((c : Thread nD τ).loc main_arg8) := by
  show StableHlo.after hostOps1 (W4 m ρ c) (Proc.devRef .tc main_arg8) = _
  simp only [hostOps1]
  after_results_simp
  exact w4_arg8 m ρ c

/-! ## After the second launch -/

/-- The reference's rectified stage is the bias added along the rows and the maximum with zero, entry by entry. -/
theorem rectified_eq_v47 (x0 : (⟨Cert.ReferenceIdeal.S50000x128, .f32⟩ : BufTy).Contents (Elt Ideal))
    (x1 : (⟨Cert.ReferenceIdeal.S2x800000, .i32⟩ : BufTy).Contents (Elt Ideal))
    (x3 : (⟨Cert.ReferenceIdeal.S128x256, .f32⟩ : BufTy).Contents (Elt Ideal))
    (x4 : (⟨Cert.ReferenceIdeal.S256, .f32⟩ : BufTy).Contents (Elt Ideal)) :
    rectified (a := 50000) (k := 256) (Cert.ReferenceIdeal.ReadP.val_main_v43 (F := Ideal) x0 x1 x3) x4 = Cert.ReferenceIdeal.ReadP.val_main_v47 (F := Ideal) x0 x1 x3 x4 := by
  funext i
  obtain ⟨r, q, rfl⟩ : ∃ (r : Fin 50000) (q : Fin 256), i = ix2 r q := ⟨i 0, i 1, eq_ix2 i⟩
  rw [rectified_ix2, Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  have e : Cert.ReferenceIdeal.ReadP.idx_main_v44 (Cert.ReferenceIdeal.ReadP.idx_main_v45 (ix2 r q)) = ix1 q := funext fun a => Fin.ext (by
    match a with
    | ⟨0, _⟩ => rfl)
  rw [e]
  rfl

/-- The second launch leaves relu(agg + b1) · W2. -/
theorem w6_v44 : W6 m ρ c (Proc.devRef .tc main_v44)
    = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((region1_array (V5 m ρ) c).trans ?_)
  unfold prod1
  show Cert.LibMatProd.mm (a := 50000) (k := 256) (n := 256)
    (rectified (W5 m ρ c (Proc.devRef .tc main_v43)) (W5 m ρ c (Proc.devRef .tc main_arg4))) (W5 m ρ c (Proc.devRef .tc main_arg5)) = _
  rw [w5_v43, w5_arg4, w5_arg5, rectified_eq_v47]
  exact (Cert.LibMatProd.hostDot_eq (a := 50000) (k := 256) (n := 256) Cert.ReferenceIdeal.dot_S50000x256_S256x256_S50000x256_1_0_0_1_n_n
    (Cert.LibPlainDot.contr_rank _ rfl) (Cert.LibPlainDot.contr_size _ rfl) (Cert.LibPlainDot.lhs_row _ rfl rfl)
    (Cert.LibPlainDot.lhs_col _ rfl) (Cert.LibPlainDot.rhs_row _ rfl rfl) (Cert.LibPlainDot.rhs_col _ rfl rfl rfl rfl) none _ _).symm

theorem w6_v3 : W6 m ρ c (Proc.devRef .tc main_v3) = Cert.ReferenceIdeal.ReadP.val_main_v3 (F := Ideal) (m ((c : Thread nD τ).loc main_arg1)) :=
  (W6_of_ne m ρ c main_v3 (by decide)).trans (w5_v3 m ρ c)
theorem w6_v6 : W6 m ρ c (Proc.devRef .tc main_v6) = Cert.ReferenceIdeal.ReadP.val_main_v6 (F := Ideal) (m ((c : Thread nD τ).loc main_arg1)) :=
  (W6_of_ne m ρ c main_v6 (by decide)).trans (w5_v6 m ρ c)
theorem w6_v29 : W6 m ρ c (Proc.devRef .tc main_v29) = Cert.ReferenceIdeal.ReadP.val_main_v29 (F := Ideal) (m ((c : Thread nD τ).loc main_arg1)) :=
  (W6_of_ne m ρ c main_v29 (by decide)).trans (w5_v29 m ρ c)
theorem w6_arg6 : W6 m ρ c (Proc.devRef .tc main_arg6) = m ((c : Thread nD τ).loc main_arg6) :=
  (W6_of_ne m ρ c main_arg6 (by decide)).trans (w5_arg6 m ρ c)
theorem w6_arg2 : W6 m ρ c (Proc.devRef .tc main_arg2) = m ((c : Thread nD τ).loc main_arg2) :=
  (W6_of_ne m ρ c main_arg2 (by decide)).trans (w5_arg2 m ρ c)
theorem w6_arg7 : W6 m ρ c (Proc.devRef .tc main_arg7) = m ((c : Thread nD τ).loc main_arg7) :=
  (W6_of_ne m ρ c main_arg7 (by decide)).trans (w5_arg7 m ρ c)
theorem w6_arg8 : W6 m ρ c (Proc.devRef .tc main_arg8) = m ((c : Thread nD τ).loc main_arg8) :=
  (W6_of_ne m ρ c main_arg8 (by decide)).trans (w5_arg8 m ρ c)

/-! ## Before the third launch -/

/-- The pooled means: the second aggregation plus b2, summed per graph and divided by max(count, 1). -/
theorem w7_v72 : W7 m ρ c (Proc.devRef .tc main_v72)
    = Cert.ReferenceIdeal.ReadP.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v72) = _
  simp only [hostOps2]
  after_results_simp
  rw [w6_v3, w6_v6, w6_v29, w6_v44, w6_arg6, w6_arg2]
  rfl

theorem w7_arg7 : W7 m ρ c (Proc.devRef .tc main_arg7) = m ((c : Thread nD τ).loc main_arg7) := by
  show StableHlo.after hostOps2 (W6 m ρ c) (Proc.devRef .tc main_arg7) = _
  simp only [hostOps2]
  after_results_simp
  exact w6_arg7 m ρ c
theorem w7_arg8 : W7 m ρ c (Proc.devRef .tc main_arg8) = m ((c : Thread nD τ).loc main_arg8) := by
  show StableHlo.after hostOps2 (W6 m ρ c) (Proc.devRef .tc main_arg8) = _
  simp only [hostOps2]
  after_results_simp
  exact w6_arg8 m ρ c

/-! ## After the third launch -/

/-- The third launch leaves the logits: pooled · Wlin + blin, the bias vector read as a row by a reshape in the kernel
    and by a broadcast along axis 1 on the host. -/
theorem w8_v73 : W8 m ρ c (Proc.devRef .tc main_v73)
    = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((region2_array (V7 m ρ) c).trans ?_)
  unfold layer2
  show Cert.LibAffine.affine (a := 256) (k := 256) (n := 10) (W7 m ρ c (Proc.devRef .tc main_v72)) (W7 m ρ c (Proc.devRef .tc main_arg7))
    (shapeCast S1x10 (W7 m ρ c (Proc.devRef .tc main_arg8)) shapeCasts_S10_S1x10) = _
  rw [w7_v72, w7_arg7, w7_arg8,
    Cert.LibColumnRow.shapeCast_row_eq_broadcastInDim (n := 10) _ _ Cert.ReferenceIdeal.Gen.bcast_S10_S1x10_1]
  exact (Cert.LibAffine.hostAffine_eq (a := 256) (k := 256) (n := 10) Cert.ReferenceIdeal.dot_S256x256_S256x10_S256x10_1_0_0_1_n_n
    (Cert.LibPlainDot.contr_rank _ rfl) (Cert.LibPlainDot.contr_size _ rfl) (Cert.LibPlainDot.lhs_row _ rfl rfl)
    (Cert.LibPlainDot.lhs_col _ rfl) (Cert.LibPlainDot.rhs_row _ rfl rfl) (Cert.LibPlainDot.rhs_col _ rfl rfl rfl rfl) Cert.ReferenceIdeal.Gen.bcast_S1x10_S256x10_0_1 none _ _ _).symm

end Cert.KernelIdeal.Hand

end
-- ==== Proof.lean ====
/-
  A two-layer graph convolution with self-loops, a mean pool per graph and a linear layer: the Pallas kernel against
  its jnp reference, on the extended reals.

  Both programs build the same source and target index vectors (the edge list followed by the self-loops), the same
  degree vector and the same edge weights deg^(-1/2)[src] · deg^(-1/2)[dst], and both gather, scale and scatter-add
  with the same host operations. They differ in three places only. Where the reference computes x · W1,
  relu(agg + b1) · W2 and pooled · Wlin + blin on the host, the kernel launches a pallas_call: a product in ten blocks of
  5000 rows, the bias, the rectifier and a product in ten blocks of 5000 rows, and a product plus a bias row in one
  block. On the extended reals a change of float format is the identity and a product into a zero accumulator is the
  sum of products, so each launch leaves exactly the array the reference's host operations compute (a block of rows of
  a matrix product is the product of the block of rows, and the rectifier acts entry by entry). The two results are
  then one term of the arguments. No law that fails at infinity is used, so the precondition is never opened.

  The frames of the two kernel programs are the generated ones; the reference's frame is its run with the result
  dropped; the idealization rewrote no operation, so there is nothing to preserve.
-/
import proofs.«178638_j4045859193302_1_alg».proof.Defs
import proofs.«178638_j4045859193302_1_alg».proof.Proof.Gen.Kernel
import proofs.«178638_j4045859193302_1_alg».proof.Proof.Gen.Kernel.Skeleton
import proofs.«178638_j4045859193302_1_alg».proof.Proof.Gen.Kernel.Launch
import proofs.«178638_j4045859193302_1_alg».proof.Proof.Gen.Kernel.Points
import proofs.«178638_j4045859193302_1_alg».proof.Proof.Gen.Kernel.Frame
import proofs.«178638_j4045859193302_1_alg».proof.Proof.Gen.KernelIdeal
import proofs.«178638_j4045859193302_1_alg».proof.Proof.Gen.KernelIdeal.Skeleton
import proofs.«178638_j4045859193302_1_alg».proof.Proof.Gen.KernelIdeal.Launch
import proofs.«178638_j4045859193302_1_alg».proof.Proof.Gen.KernelIdeal.Points
import proofs.«178638_j4045859193302_1_alg».proof.Proof.Gen.KernelIdeal.Frame
import proofs.«178638_j4045859193302_1_alg».proof.Proof.Gen.ReferenceIdeal
import proofs.«178638_j4045859193302_1_alg».proof.Proof.Gen.Pre_finite_inputs
import proofs.«178638_j4045859193302_1_alg».proof.Proof.KRun
import proofs.«178638_j4045859193302_1_alg».proof.Proof.HostChain
import proofs.«178638_j4045859193302_1_alg».proof.Proof.RefRead
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The idealized kernel ends with its result at the reference's last stage of the kernel's own arguments, and
    with its arguments unchanged. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v73)
          = Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c => ⟨(h c).1.trans (Cert.KernelIdeal.Hand.w8_v73 m ρ c), (h c).2⟩)
    (Cert.KernelIdeal.Hand.run_result (F := Ideal) m ρ)

/-- From memories that agree on the arguments both idealized programs end with the same result: the reference's
    last stage of the arguments. -/
theorem algebraic : Cert.algebraic_KernelIdeal_ReferenceIdeal := by
  intro m ρ m' ρ' _ hagree
  refine ⟨fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), kernel_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v80_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
